-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_arg7 : FVec F S2x64 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S100000x8 .f32) (main_arg1 : IVec S2x1600000 32) (main_arg2 : FVec F S64x8 .f32) (main_arg3 : FVec F S64 .f32) (main_arg4 : FVec F S64x8 .f32) (main_arg5 : FVec F S2x64 .f32) (main_arg6 : FVec F S2 .f32) (main_arg7 : FVec F S2x64 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S64x8 .f32 := Host.absf main_arg2
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_arg6 main_arg7 main_v13 main_v16
-- ==== Kernel.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x8 : Shape := ⟨2, ![1600000, 8]⟩
abbrev S1x64 : Shape := ⟨2, ![1, 64]⟩
abbrev S100000x64 : Shape := ⟨2, ![100000, 64]⟩
abbrev S5000x8 : Shape := ⟨2, ![5000, 8]⟩
abbrev S5000x64 : Shape := ⟨2, ![5000, 64]⟩
abbrev S8x64 : Shape := ⟨2, ![8, 64]⟩
abbrev S1600000x64 : Shape := ⟨2, ![1600000, 64]⟩
abbrev S1x2 : Shape := ⟨2, ![1, 2]⟩
abbrev S100000x2 : Shape := ⟨2, ![100000, 2]⟩
abbrev S5000x2 : Shape := ⟨2, ![5000, 2]⟩
abbrev S64x2 : Shape := ⟨2, ![64, 2]⟩

abbrev nBuf : Space → Nat
  | .hbm => 59
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S64x8, .f32⟩
  | .hbm, ⟨3, _⟩ => ⟨S64, .f32⟩
  | .hbm, ⟨4, _⟩ => ⟨S64x8, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x8, .f32⟩
  | .hbm, ⟨34, _⟩ => ⟨S_, .f32⟩
  | .hbm, ⟨35, _⟩ => ⟨S100000x8, .f32⟩
  | .hbm, ⟨36, _⟩ => ⟨S1600000x1, .i32⟩
  | .hbm, ⟨37, _⟩ => ⟨S100000x8, .f32⟩
  | .hbm, ⟨38, _⟩ => ⟨S100000x8, .f32⟩
  | .hbm, ⟨39, _⟩ => ⟨S100000x8, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x2, .f32⟩
  | .hbm, ⟨58, _⟩ => ⟨S100000x2, .f32⟩
  | .local _ .vmem, ⟨0, _⟩ => ⟨S5000x8, .f32⟩
  | .local _ .vmem, ⟨1, _⟩ => ⟨S5000x8, .f32⟩
  | .local _ .vmem, ⟨2, _⟩ => ⟨S5000x8, .f32⟩
  | .local _ .vmem, ⟨3, _⟩ => ⟨S5000x8, .f32⟩
  | .local _ .vmem, ⟨4, _⟩ => ⟨S64x8, .f32⟩
  | .local _ .vmem, ⟨5, _⟩ => ⟨S1x64, .f32⟩
  | .local _ .vmem, ⟨6, _⟩ => ⟨S64x8, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S2x64, .f32⟩
  | .local _ .vmem, ⟨14, _⟩ => ⟨S1x2, .f32⟩
  | .local _ .vmem, ⟨15, _⟩ => ⟨S2x64, .f32⟩
  | .local _ .vmem, ⟨16, _⟩ => ⟨S5000x2, .f32⟩
  | .local _ .vmem, ⟨17, _⟩ => ⟨S5000x2, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  bitsLt_bf16_f32 : FTy.bits .bf16 < FTy.bits .f32
  inb_S64x8_S64x8_0_0 : ∀ a, (![0, 0] : Fin 2 → Nat) a + S64x8.size a ≤ S64x8.size a
  h_S64x8 : 0 < S64x8.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x8_p1_0_S8x64 : S64x8.Transposes [1, 0] S8x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2_S1x2 : S2.ShapeCasts S1x2
  shapeCasts_S5000x64_S5000x64 : S5000x64.ShapeCasts S5000x64
  inb_S2x64_S2x64_0_0 : ∀ a, (![0, 0] : Fin 2 → Nat) a + S2x64.size a ≤ S2x64.size a
  h_S2x64 : 0 < S2x64.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x64_p1_0_S64x2 : S2x64.Transposes [1, 0] S64x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x8_S8x64_S5000x64_1_0_0_1_n_n_wf : DotDims.WF S5000x8 S8x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8.size a ≤ S64x8.size a
  hwx0_4 : ∀ i : grid0.Coords, EltTy.bits .f32 = 32 ∨ (Rect.block (s := S64x8) S64x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x64.size a ≤ S2x64.size a
  hwx1_4 : ∀ i : grid1.Coords, EltTy.bits .f32 = 32 ∨ (Rect.block (s := S2x64) S2x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S2x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x1600000 : Shape := ⟨2, ![2, 1600000]⟩
abbrev S64x8 : Shape := ⟨2, ![64, 8]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S8x64 : Shape := ⟨2, ![8, 64]⟩
abbrev S100000x64 : Shape := ⟨2, ![100000, 64]⟩
abbrev S1x64 : Shape := ⟨2, ![1, 64]⟩
abbrev S1600000x64 : Shape := ⟨2, ![1600000, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S64x8, .f32⟩
  | .hbm, ⟨3, _⟩ => ⟨S64, .f32⟩
  | .hbm, ⟨4, _⟩ => ⟨S64x8, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x8, .f32⟩
  | .hbm, ⟨21, _⟩ => ⟨S_, .f32⟩
  | .hbm, ⟨22, _⟩ => ⟨S100000x8, .f32⟩
  | .hbm, ⟨23, _⟩ => ⟨S1600000x1, .i32⟩
  | .hbm, ⟨24, _⟩ => ⟨S100000x8, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x8, .f32⟩
  | .hbm, ⟨36, _⟩ => ⟨S100000x8, .f32⟩
  | .hbm, ⟨37, _⟩ => ⟨S8x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S8x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S64x2, .f32⟩
  | .hbm, ⟨78, _⟩ => ⟨S100000x2, .f32⟩
  | .hbm, ⟨79, _⟩ => ⟨S1x2, .f32⟩
  | .hbm, ⟨80, _⟩ => ⟨S100000x2, .f32⟩
  | .hbm, ⟨81, _⟩ => ⟨S100000x2, .f32⟩
  | .hbm, ⟨82, _⟩ => ⟨S64x2, .f32⟩
  | .hbm, ⟨83, _⟩ => ⟨S100000x2, .f32⟩
  | .hbm, ⟨84, _⟩ => ⟨S100000x2, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  transposes_S64x8_S8x64_1_0 : S64x8.Transposes [1, 0] S8x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x64_S100000x64_1_0_0_1_n_n_wf : DotDims.WF S100000x8 S8x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/- The kernel's run with its result named.

   The program `main` is four segments in order: a stretch of host operations, the first row-blocked
   region, a second stretch of host operations, the second row-blocked region. Every weakly fair
   execution from a memory with zero counters terminates without a fault, and in every final state

     * the result array `main_v40` of each core holds what the second region's write-backs leave,
       folded over all of its grid points, when the region is entered at the contents `Gen.V3 m ρ`
       (the launch contents carried through the first stretch, the first region and the second
       stretch);
     * each of the eight argument arrays holds what it held at the launch.

   The run is the library's theorem for a program of several regions among stretches of host
   operations, at the same boundary contents `Gen.W0 … Gen.W4` as the frame claim;
   the final state is read at one more buffer: `main_v40` is the array of the second region's
   window 5, and at the last boundary that array holds `(Gen.dat1 (Gen.V3 m ρ) c).arrAt 5 cfg1.N`
   (`Gen.W4_arr`). -/
import proofs.«103269_j29317446762711_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's output window stages the result array. -/
theorem arrRef_out : Pipeline.arrRef spec1 5 = main_v40 := rfl

/-- At the last boundary the result array holds the second region's write-backs folded over its grid. -/
theorem W4_out (c : Dev nD) :
    Gen.W4 m ρ c (Proc.devRef .tc main_v40) = (Gen.dat1 (Gen.V3 m ρ) c).arrAt 5 cfg1.N :=
  Gen.W4_arr m ρ c 5

set_option backward.isDefEq.respectTransparency.types false in
/-- The run of `main` on the TensorCores from the memory `m` with zero counters: termination without a
    fault, the result array at the second region's folded write-backs, the arguments as launched. -/
theorem run_out : θ_run defs (onTc (τ := τ) (main (F := F))) ⟨m, fun _ => 0, ρ⟩ (fun r => ∀ c : Dev nD,
      r.2.mem ((c.tc : Thread nD τ).loc main_v40) = (Gen.dat1 (Gen.V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨(h c _ (Gen.mem_uc main_v40 (by decide))).trans (W4_out m ρ c),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c)⟩)

end Cert.KernelIdeal.RunValue

end
-- ==== Proof.Laws.lean ====
/-
  The two laws of the extended reals that join the two programs.

  A mean over a node's neighbours is taken by one program as the sum TIMES the reciprocal `1 / max(cnt, 1)` of the
  clamped neighbour count, by the other as the sum DIVIDED by `max(cnt, 1)`. The clamped count is at least one, so
  it is never zero, and off zero the quotient of the extended reals IS the product with the inverse
  (`x / y = x · y⁻¹`, with `(±∞)⁻¹ = 0`): the two agree at every sum and every count, the infinite ones included,
  so neither needs to be known finite.

  The three terms of a layer — neighbours' part, own part, bias — are added in two different orders; addition of
  extended reals is commutative and associative at the infinities too.
-/
import Idealize.ShloMosaic.PureOps.Ideal
import Idealize.ShloMosaic.Lib.IdealHost

noncomputable section

open Idealize.ShloMosaic

namespace Cert.Sage

/-- The clamped count is not zero, whatever the count. -/
theorem clamp_ne_zero (c : EReal) : max c (1 : EReal) ≠ 0 :=
  ne_of_gt (lt_of_lt_of_le zero_lt_one (le_max_right c 1))

/-- `s · (1 / max(c, 1)) = s / max(c, 1)` for every extended real `s` and `c`; the `1`s are the float pattern of one. -/
theorem mul_recip_clamp (s c : EReal) :
    s * Ideal.div (Ideal.ofBits .f32 0x3F800000#32) (max c (Ideal.ofBits .f32 0x3F800000#32))
      = Ideal.div s (max c (Ideal.ofBits .f32 0x3F800000#32)) := by
  rw [Ideal.ofBits_one_f32]
  unfold Ideal.div
  rw [if_neg (clamp_ne_zero c), if_neg (clamp_ne_zero c), one_mul]

/-- `(u + v) + b = (u + b) + v`: the bias added last, or between the two products. -/
theorem bias_last (u v b : EReal) : (u + v) + b = (u + b) + v := add_right_comm u v b

end Cert.Sage

end
-- ==== Proof.Layer1.lean ====
/-
  The first layer's dense combine, one block of 5000 nodes at a time, read entry by entry.
  For a node `p` of the block and a hidden channel `q` the body computes
      max ((Σ_k a(p,k)·wl(q,k) + Σ_k x(p,k)·wr(q,k)) + b(0,q)) 0
  where `a` is the block of mean-aggregated neighbour features, `x` the block of the nodes' own features,
  `wl`, `wr` the two weight matrices stored channel-major ([64, 8]: the body transposes them before each
  product, so both sums run over the SECOND coordinate of the weights) and `b` the bias as a row.
  The changes of float format before the products are the identity on the extended reals, and a product
  into a zero accumulator is the plain sum of products.
-/
import proofs.«103269_j29317446762711_1_alg».proof.Proof.Gen.KernelIdeal.Frame
import Idealize.ShloMosaic.Lib.Pipeline.Value
import Idealize.ShloMosaic.Lib.ValueIdx
import Idealize.ShloMosaic.PureOps.Ideal.Laws
import proofs.«103269_j29317446762711_1_alg».proof.Proof.Laws

set_option maxRecDepth 16384

noncomputable section

open Idealize.ShloMosaic Idealize.ShloMosaic.TcCoe Idealize.SL.Sem Idealize.ShloMosaic.ValueIdx
open scoped BigOperators

namespace Cert.KernelIdeal.Layer1

open Cert.KernelIdeal Cert.KernelIdeal.Gen

/-- The left operand of the product is read at the output's row. -/
theorem lhs_row (i : S5000x64.Idx) (q : dot_S5000x8_S8x64_S5000x64_1_0_0_1_n_n.contr.Idx) :
    (dot_S5000x8_S8x64_S5000x64_1_0_0_1_n_n.lhsIdx i q 0).val = (i 0).val := by
  unfold DotDims.lhsIdx
  rw [dif_neg (show ¬(0 : Fin S5000x8.rank) ∈ dot_S5000x8_S8x64_S5000x64_1_0_0_1_n_n.lhsBatch by decide),
    dif_pos (show (0 : Fin S5000x8.rank) ∈ dot_S5000x8_S8x64_S5000x64_1_0_0_1_n_n.lhsNonContracting by decide)]
  rfl

/-- The right operand of the product is read at the output's column. -/
theorem rhs_col (i : S5000x64.Idx) (q : dot_S5000x8_S8x64_S5000x64_1_0_0_1_n_n.contr.Idx) :
    (dot_S5000x8_S8x64_S5000x64_1_0_0_1_n_n.rhsIdx i q 1).val = (i 1).val := by
  unfold DotDims.rhsIdx
  rw [dif_neg (show ¬(1 : Fin S8x64.rank) ∈ dot_S5000x8_S8x64_S5000x64_1_0_0_1_n_n.rhsBatch by decide),
    dif_pos (show (1 : Fin S8x64.rank) ∈ dot_S5000x8_S8x64_S5000x64_1_0_0_1_n_n.rhsNonContracting by decide)]
  rfl

/-- A product of a [5000, 8] block with the transpose of a channel-major [64, 8] weight matrix, into a zero
    accumulator, at row `p` and channel `q`: the sum over the eight input features of the products. -/
theorem product_apply (a : FVec Ideal S5000x8 .bf16) (w : FVec Ideal S64x8 .bf16) (p : Fin 5000) (q : Fin 64) :
    matmul dot_S5000x8_S8x64_S5000x64_1_0_0_1_n_n none a (transpose S8x64 [1, 0] w transposes_S64x8_p1_0_S8x64)
        (constant S5000x64 .f32 0x00000000#32) (ix2 p q)
      = ∑ k : Fin 8, a (ix2 p k) * w (ix2 q k) := by
  simp only [matmul]
  rw [Ideal.matmul_constant_zero_apply,
    ← Equiv.sum_comp (contrEquiv1 dot_S5000x8_S8x64_S5000x64_1_0_0_1_n_n 8 rfl rfl).symm]
  refine Finset.sum_congr rfl fun k _ => ?_
  have hk := contrEquiv1_symm_val dot_S5000x8_S8x64_S5000x64_1_0_0_1_n_n 8 rfl rfl k
  have el : dot_S5000x8_S8x64_S5000x64_1_0_0_1_n_n.lhsIdx (ix2 p q) ((contrEquiv1 dot_S5000x8_S8x64_S5000x64_1_0_0_1_n_n 8 rfl rfl).symm k) = ix2 p k :=
    funext fun d => Fin.ext (by
      match d with
      | ⟨0, _⟩ => exact lhs_row _ _
      | ⟨1, _⟩ => exact (dot_S5000x8_S8x64_S5000x64_1_0_0_1_n_n.lhsIdx_val_of_single rfl _ _).trans hk)
  rw [el]
  congr 1
  refine transpose_apply [1, 0] w transposes_S64x8_p1_0_S8x64 _ (ix2 q k) fun b => ?_
  match b with
  | ⟨0, _⟩ => exact ((dot_S5000x8_S8x64_S5000x64_1_0_0_1_n_n.rhsIdx_val_of_single rfl _ _).trans hk).symm
  | ⟨1, _⟩ => exact (rhs_col (ix2 p q) _).symm

/-- The body's result at node `p` of the block and hidden channel `q`. -/
theorem pay_apply (a x : Vec Ideal S5000x8 .f32) (wl wr : Vec Ideal S64x8 .f32) (b : Vec Ideal S1x64 .f32)
    (p : Fin 5000) (q : Fin 64) :
    k0_pay1 (F := Ideal) a x wl wr b (ix2 p q)
      = max (((∑ k : Fin 8, a (ix2 p k) * wl (ix2 q k)) + ∑ k : Fin 8, x (ix2 p k) * wr (ix2 q k)) + b (ix2 0 q))
          (Ideal.ofBits .f32 0x00000000#32) := by
  unfold k0_pay1
  simp only [maximumf_apply, addf_apply, shapeCast_self, broadcast_apply]
  rw [product_apply, product_apply, broadcastTo_apply b broadcasts_S1x64_S5000x64 (ix2 p q) (ix2 0 q)
    (fun d => by match d with | ⟨0, _⟩ => rfl | ⟨1, _⟩ => rfl)]
  simp only [truncf_apply]
  rfl

/-- The hidden features of node `r`, channel `q`, from the WHOLE arrays: aggregated features `A`, own features `X`,
    the two channel-major weight matrices and the bias row. -/
def hiddenAt (A X : FVec Ideal S100000x8 .f32) (Wl Wr : FVec Ideal S64x8 .f32) (B : FVec Ideal S1x64 .f32)
    (r : Fin 100000) (q : Fin 64) : Ideal .f32 :=
  max (((∑ k : Fin 8, A (ix2 r k) * Wl (ix2 q k)) + ∑ k : Fin 8, X (ix2 r k) * Wr (ix2 q k)) + B (ix2 0 q))
    (Ideal.ofBits .f32 0x00000000#32)

/-- The same as one array over [100000, 64]. -/
def hidden (A X : FVec Ideal S100000x8 .f32) (Wl Wr : FVec Ideal S64x8 .f32) (B : FVec Ideal S1x64 .f32) :
    FVec Ideal S100000x64 .f32 :=
  fun i => hiddenAt A X Wl Wr B ⟨(i 0).val, idx2_lt0 i⟩ ⟨(i 1).val, idx2_lt1 i⟩

theorem hidden_ix2 (A X : FVec Ideal S100000x8 .f32) (Wl Wr : FVec Ideal S64x8 .f32) (B : FVec Ideal S1x64 .f32)
    (r : Fin 100000) (q : Fin 64) : hidden A X Wl Wr B (ix2 r q) = hiddenAt A X Wl Wr B r q := rfl

/-- The hidden feature with the bias added BETWEEN the two products, once row `r` of the aggregate is known entry by
    entry (`D`) and the bias row's entry is known (`b`): the order of the three terms does not matter. -/
theorem hiddenAt_eq (A X : FVec Ideal S100000x8 .f32) (Wl Wr : FVec Ideal S64x8 .f32) (B : FVec Ideal S1x64 .f32)
    (r : Fin 100000) (q : Fin 64) (D : Fin 8 → Ideal .f32) (b : Ideal .f32)
    (hA : ∀ k : Fin 8, A (ix2 r k) = D k) (hB : B (ix2 0 q) = b) :
    hiddenAt A X Wl Wr B r q
      = max (((∑ k : Fin 8, D k * Wl (ix2 q k)) + b) + ∑ k : Fin 8, X (ix2 r k) * Wr (ix2 q k))
          (Ideal.ofBits .f32 0x00000000#32) := by
  unfold hiddenAt
  rw [Cert.Sage.bias_last, hB]
  simp only [hA]

/-- One block against the whole arrays: if the two row blocks are rows `i 0` of `A` and `X` and the small operands are
    the whole weight matrices and bias, the body's result at `(p, q)` is the hidden feature at the array index `i`. -/
theorem block_entry (a x : Vec Ideal S5000x8 .f32) (wl wr : Vec Ideal S64x8 .f32) (b : Vec Ideal S1x64 .f32)
    (A X : FVec Ideal S100000x8 .f32) (Wl Wr : FVec Ideal S64x8 .f32) (B : FVec Ideal S1x64 .f32)
    (p : Fin 5000) (q : Fin 64) (i : S100000x64.Idx) (hq : (i 1).val = q.val)
    (ha : ∀ k : Fin 8, a (ix2 p k) = A (ix2 ⟨(i 0).val, idx2_lt0 i⟩ k))
    (hx : ∀ k : Fin 8, x (ix2 p k) = X (ix2 ⟨(i 0).val, idx2_lt0 i⟩ k))
    (hwl : wl = Wl) (hwr : wr = Wr) (hb : b = B) :
    k0_pay1 (F := Ideal) a x wl wr b (ix2 p q) = hidden A X Wl Wr B i := by
  rw [pay_apply]
  subst hwl hwr hb
  have e : (⟨(i 1).val, idx2_lt1 i⟩ : Fin 64) = q := Fin.ext hq
  unfold hidden hiddenAt
  rw [e]
  simp only [ha, hx]

/-! ## From the blocks to the array

  Point `t` of the grid works on rows `5000·t … 5000·t + 4999`: the two row windows and the output window move with
  `t`, the weights and the bias are the same whole arrays at every point. The twenty output blocks tile the
  [100000, 64] array, so after the last point it holds `hidden` of the arrays as the region found them. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: block row `t` for the two row windows and the output, block (0, 0) for the
    weights and the bias. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `hidden` of the arrays as the region finds them. -/
theorem flushed_eq (c : Dev nD) (t : Fin cfg0.N) :
    (dat0 V c).flushed 5 t = ((cfg0.win 5).blk t).view.read (Elt Ideal)
      (hidden (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x8) hz, View.ld_unit_zero (S := S64x8) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
      = hidden (V c main_v24) (V c main_arg0) (V c main_arg2) (V c main_arg4) (V c main_v25)
          (((cfg0.win 5).blk t).view.emb (ix2 p q))
  refine block_entry (iblk0 V c 0 t) (iblk0 V c 1 t) (iblk0 V c 2 t) (iblk0 V c 4 t) (iblk0 V c 3 t)
    (V c main_v24) (V c main_arg0) (V c main_arg2) (V c main_arg4) (V c main_v25) p q
    (((cfg0.win 5).blk t).view.emb (ix2 p q)) ?_ ?_ ?_ ?_ ?_ ?_
  · show win0_5.index t (1 : Fin 2) * 64 + 1 * q.val = q.val
    rw [e51]; omega
  · intro k
    show V c main_v24 (((cfg0.win 0).blk t).view.emb (ix2 p k)) = _
    refine congrArg (V c main_v24) (funext fun d => Fin.ext ?_)
    match d with
    | ⟨0, _⟩ => show win0_0.index t (0 : Fin 2) * 5000 + 1 * p.val = win0_5.index t (0 : Fin 2) * 5000 + 1 * p.val; rw [e00, e50]
    | ⟨1, _⟩ => show win0_0.index t (1 : Fin 2) * 8 + 1 * k.val = k.val; rw [e01]; omega
  · intro k
    show V c main_arg0 (((cfg0.win 1).blk t).view.emb (ix2 p k)) = _
    refine congrArg (V c main_arg0) (funext fun d => Fin.ext ?_)
    match d with
    | ⟨0, _⟩ => show win0_1.index t (0 : Fin 2) * 5000 + 1 * p.val = win0_5.index t (0 : Fin 2) * 5000 + 1 * p.val; rw [e10, e50]
    | ⟨1, _⟩ => show win0_1.index t (1 : Fin 2) * 8 + 1 * k.val = k.val; rw [e11]; omega
  · funext y
    show V c main_arg2 (((cfg0.win 2).blk t).view.emb y) = V c main_arg2 y
    refine congrArg (V c main_arg2) (funext fun d => Fin.ext ?_)
    match d with
    | ⟨0, _⟩ => show win0_2.index t (0 : Fin 2) * 64 + 1 * (y 0).val = (y 0).val; rw [e20]; omega
    | ⟨1, _⟩ => show win0_2.index t (1 : Fin 2) * 8 + 1 * (y 1).val = (y 1).val; rw [e21]; omega
  · funext y
    show V c main_arg4 (((cfg0.win 4).blk t).view.emb y) = V c main_arg4 y
    refine congrArg (V c main_arg4) (funext fun d => Fin.ext ?_)
    match d with
    | ⟨0, _⟩ => show win0_4.index t (0 : Fin 2) * 64 + 1 * (y 0).val = (y 0).val; rw [e40]; omega
    | ⟨1, _⟩ => show win0_4.index t (1 : Fin 2) * 8 + 1 * (y 1).val = (y 1).val; rw [e41]; omega
  · funext y
    show V c main_v25 (((cfg0.win 3).blk t).view.emb y) = V c main_v25 y
    refine congrArg (V c main_v25) (funext fun d => Fin.ext ?_)
    match d with
    | ⟨0, _⟩ => show win0_3.index t (0 : Fin 2) * 1 + 1 * (y 0).val = (y 0).val; rw [e30]; omega
    | ⟨1, _⟩ => show win0_3.index t (1 : Fin 2) * 64 + 1 * (y 1).val = (y 1).val; rw [e31]; omega

/-- An index of the array is in point `t`'s output block iff each coordinate is in the block's range. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row `r` of the array lies in the block of point `r / 5000`. -/
theorem cover (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have hN : cfg0.N = 20 := N_0
  have ht : (i 0).val / 5000 < cfg0.N := by rw [hN]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e51]; omega

/-- After the region the hidden-feature array holds `hidden` of the arrays as the region found them. -/
theorem final (c : Dev nD) :
    (dat0 V c).arrAt 5 cfg0.N
      = hidden (V c main_v24) (V c main_arg0) (V c main_arg2) (V c main_arg4) (V c main_v25) :=
  (dat0 V c).arrAt_eq_of_cover 5 _ (fun t _ => flushed_eq V c t) cover

end Cert.KernelIdeal.Layer1

end
-- ==== Proof.Layer2.lean ====
/-
  The second layer's dense combine, one block of 5000 nodes at a time, read entry by entry.
  For a node `p` of the block and an output channel `q` the body computes
      (Σ_k a(p,k)·wl(q,k) + Σ_k x(p,k)·wr(q,k)) + b(0,q)
  where `a` is the block of mean-aggregated hidden features of the neighbours, `x` the block of the nodes' own
  hidden features, `wl`, `wr` the two weight matrices stored channel-major ([2, 64], transposed in the body before
  each product) and `b` the bias as a row; there is no rectifier after the last layer.
-/
import proofs.«103269_j29317446762711_1_alg».proof.Proof.Gen.KernelIdeal.Frame
import Idealize.ShloMosaic.Lib.Pipeline.Value
import Idealize.ShloMosaic.Lib.ValueIdx
import Idealize.ShloMosaic.PureOps.Ideal.Laws
import proofs.«103269_j29317446762711_1_alg».proof.Proof.Laws

set_option maxRecDepth 16384

noncomputable section

open Idealize.ShloMosaic Idealize.ShloMosaic.TcCoe Idealize.SL.Sem Idealize.ShloMosaic.ValueIdx
open scoped BigOperators

namespace Cert.KernelIdeal.Layer2

open Cert.KernelIdeal Cert.KernelIdeal.Gen

/-- The left operand of the product is read at the output's row. -/
theorem lhs_row (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide),
    dif_pos (show (0 : Fin S5000x64.rank) ∈ dot_S5000x64_S64x2_S5000x2_1_0_0_1_n_n.lhsNonContracting by decide)]
  rfl

/-- The right operand of the product is read at the output's column. -/
theorem rhs_col (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide),
    dif_pos (show (1 : Fin S64x2.rank) ∈ dot_S5000x64_S64x2_S5000x2_1_0_0_1_n_n.rhsNonContracting by decide)]
  rfl

/-- A product of a [5000, 64] block with the transpose of a channel-major [2, 64] weight matrix, into a zero
    accumulator, at row `p` and channel `q`: the sum over the sixty-four hidden features of the products. -/
theorem product_apply (a : FVec Ideal S5000x64 .bf16) (w : FVec Ideal S2x64 .bf16) (p : Fin 5000) (q : Fin 2) :
    matmul dot_S5000x64_S64x2_S5000x2_1_0_0_1_n_n none a (transpose S64x2 [1, 0] w transposes_S2x64_p1_0_S64x2)
        (constant S5000x2 .f32 0x00000000#32) (ix2 p q)
      = ∑ k : Fin 64, a (ix2 p k) * w (ix2 q k) := by
  simp only [matmul]
  rw [Ideal.matmul_constant_zero_apply,
    ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 p q) ((contrEquiv1 dot_S5000x64_S64x2_S5000x2_1_0_0_1_n_n 64 rfl rfl).symm k) = ix2 p k :=
    funext fun d => Fin.ext (by
      match d with
      | ⟨0, _⟩ => exact lhs_row _ _
      | ⟨1, _⟩ => exact (dot_S5000x64_S64x2_S5000x2_1_0_0_1_n_n.lhsIdx_val_of_single rfl _ _).trans hk)
  rw [el]
  congr 1
  refine transpose_apply [1, 0] w transposes_S2x64_p1_0_S64x2 _ (ix2 q k) fun b => ?_
  match b with
  | ⟨0, _⟩ => exact ((dot_S5000x64_S64x2_S5000x2_1_0_0_1_n_n.rhsIdx_val_of_single rfl _ _).trans hk).symm
  | ⟨1, _⟩ => exact (rhs_col (ix2 p q) _).symm

/-- The body's result at node `p` of the block and output channel `q`. -/
theorem pay_apply (a x : Vec Ideal S5000x64 .f32) (wl wr : Vec Ideal S2x64 .f32) (b : Vec Ideal S1x2 .f32)
    (p : Fin 5000) (q : Fin 2) :
    k1_pay1 (F := Ideal) a x wl wr b (ix2 p q)
      = ((∑ k : Fin 64, a (ix2 p k) * wl (ix2 q k)) + ∑ k : Fin 64, x (ix2 p k) * wr (ix2 q k)) + b (ix2 0 q) := by
  unfold k1_pay1
  simp only [addf_apply, shapeCast_self]
  rw [product_apply, product_apply, broadcastTo_apply b broadcasts_S1x2_S5000x2 (ix2 p q) (ix2 0 q)
    (fun d => by match d with | ⟨0, _⟩ => rfl | ⟨1, _⟩ => rfl)]
  simp only [truncf_apply]

/-- The output of node `r`, channel `q`, from the WHOLE arrays: aggregated hidden features `A`, own hidden features
    `X`, the two channel-major weight matrices and the bias row. -/
def outAt (A X : FVec Ideal S100000x64 .f32) (Wl Wr : FVec Ideal S2x64 .f32) (B : FVec Ideal S1x2 .f32)
    (r : Fin 100000) (q : Fin 2) : Ideal .f32 :=
  ((∑ k : Fin 64, A (ix2 r k) * Wl (ix2 q k)) + ∑ k : Fin 64, X (ix2 r k) * Wr (ix2 q k)) + B (ix2 0 q)

/-- The same as one array over [100000, 2]. -/
def out (A X : FVec Ideal S100000x64 .f32) (Wl Wr : FVec Ideal S2x64 .f32) (B : FVec Ideal S1x2 .f32) :
    FVec Ideal S100000x2 .f32 :=
  fun i => outAt A X Wl Wr B ⟨(i 0).val, idx2_lt0 i⟩ ⟨(i 1).val, idx2_lt1 i⟩

theorem out_ix2 (A X : FVec Ideal S100000x64 .f32) (Wl Wr : FVec Ideal S2x64 .f32) (B : FVec Ideal S1x2 .f32)
    (r : Fin 100000) (q : Fin 2) : out A X Wl Wr B (ix2 r q) = outAt A X Wl Wr B r q := rfl

/-- The output with the bias added BETWEEN the two products, once row `r` of the aggregate is known entry by entry
    (`D`) and the bias row's entry is known (`b`): the order of the three terms does not matter. -/
theorem outAt_eq (A X : FVec Ideal S100000x64 .f32) (Wl Wr : FVec Ideal S2x64 .f32) (B : FVec Ideal S1x2 .f32)
    (r : Fin 100000) (q : Fin 2) (D : Fin 64 → Ideal .f32) (b : Ideal .f32)
    (hA : ∀ k : Fin 64, A (ix2 r k) = D k) (hB : B (ix2 0 q) = b) :
    outAt A X Wl Wr B r q
      = ((∑ k : Fin 64, D k * Wl (ix2 q k)) + b) + ∑ k : Fin 64, X (ix2 r k) * Wr (ix2 q k) := by
  unfold outAt
  rw [Cert.Sage.bias_last, hB]
  simp only [hA]

/-- One block against the whole arrays: if the two row blocks are rows `i 0` of `A` and `X` and the small operands are
    the whole weight matrices and bias, the body's result at `(p, q)` is the output at the array index `i`. -/
theorem block_entry (a x : Vec Ideal S5000x64 .f32) (wl wr : Vec Ideal S2x64 .f32) (b : Vec Ideal S1x2 .f32)
    (A X : FVec Ideal S100000x64 .f32) (Wl Wr : FVec Ideal S2x64 .f32) (B : FVec Ideal S1x2 .f32)
    (p : Fin 5000) (q : Fin 2) (i : S100000x2.Idx) (hq : (i 1).val = q.val)
    (ha : ∀ k : Fin 64, a (ix2 p k) = A (ix2 ⟨(i 0).val, idx2_lt0 i⟩ k))
    (hx : ∀ k : Fin 64, x (ix2 p k) = X (ix2 ⟨(i 0).val, idx2_lt0 i⟩ k))
    (hwl : wl = Wl) (hwr : wr = Wr) (hb : b = B) :
    k1_pay1 (F := Ideal) a x wl wr b (ix2 p q) = out A X Wl Wr B i := by
  rw [pay_apply]
  subst hwl hwr hb
  have e : (⟨(i 1).val, idx2_lt1 i⟩ : Fin 2) = q := Fin.ext hq
  unfold out outAt
  rw [e]
  simp only [ha, hx]

/-! ## From the blocks to the array

  Point `t` of the grid works on rows `5000·t … 5000·t + 4999`: the two row windows and the output window move with
  `t`, the weights and the bias are the same whole arrays at every point. The twenty output blocks tile the
  [100000, 2] array, so after the last point it holds `out` of the arrays as the region found them. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: block row `t` for the two row windows and the output, block (0, 0) for the
    weights and the bias. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `out` of the arrays as the region finds them. -/
theorem flushed_eq (c : Dev nD) (t : Fin cfg1.N) :
    (dat1 V c).flushed 5 t = ((cfg1.win 5).blk t).view.read (Elt Ideal)
      (out (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S5000x64) hz, View.ld_unit_zero (S := S2x64) hz, View.ld_unit_zero (S := S1x2) hz]
  obtain ⟨e00, e01, e10, e11, e20, e21, e30, e31, e40, e41, e50, e51⟩ := idx_facts t
  funext j
  obtain ⟨p, q, rfl⟩ : ∃ (p : Fin 5000) (q : Fin 2), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
      = out (V c main_v38) (V c main_v26) (V c main_arg5) (V c main_arg7) (V c main_v39)
          (((cfg1.win 5).blk t).view.emb (ix2 p q))
  refine block_entry (iblk1 V c 0 t) (iblk1 V c 1 t) (iblk1 V c 2 t) (iblk1 V c 4 t) (iblk1 V c 3 t)
    (V c main_v38) (V c main_v26) (V c main_arg5) (V c main_arg7) (V c main_v39) p q
    (((cfg1.win 5).blk t).view.emb (ix2 p q)) ?_ ?_ ?_ ?_ ?_ ?_
  · show win1_5.index t (1 : Fin 2) * 2 + 1 * q.val = q.val
    rw [e51]; omega
  · intro k
    show V c main_v38 (((cfg1.win 0).blk t).view.emb (ix2 p k)) = _
    refine congrArg (V c main_v38) (funext fun d => Fin.ext ?_)
    match d with
    | ⟨0, _⟩ => show win1_0.index t (0 : Fin 2) * 5000 + 1 * p.val = win1_5.index t (0 : Fin 2) * 5000 + 1 * p.val; rw [e00, e50]
    | ⟨1, _⟩ => show win1_0.index t (1 : Fin 2) * 64 + 1 * k.val = k.val; rw [e01]; omega
  · intro k
    show V c main_v26 (((cfg1.win 1).blk t).view.emb (ix2 p k)) = _
    refine congrArg (V c main_v26) (funext fun d => Fin.ext ?_)
    match d with
    | ⟨0, _⟩ => show win1_1.index t (0 : Fin 2) * 5000 + 1 * p.val = win1_5.index t (0 : Fin 2) * 5000 + 1 * p.val; rw [e10, e50]
    | ⟨1, _⟩ => show win1_1.index t (1 : Fin 2) * 64 + 1 * k.val = k.val; rw [e11]; omega
  · funext y
    show V c main_arg5 (((cfg1.win 2).blk t).view.emb y) = V c main_arg5 y
    refine congrArg (V c main_arg5) (funext fun d => Fin.ext ?_)
    match d with
    | ⟨0, _⟩ => show win1_2.index t (0 : Fin 2) * 2 + 1 * (y 0).val = (y 0).val; rw [e20]; omega
    | ⟨1, _⟩ => show win1_2.index t (1 : Fin 2) * 64 + 1 * (y 1).val = (y 1).val; rw [e21]; omega
  · funext y
    show V c main_arg7 (((cfg1.win 4).blk t).view.emb y) = V c main_arg7 y
    refine congrArg (V c main_arg7) (funext fun d => Fin.ext ?_)
    match d with
    | ⟨0, _⟩ => show win1_4.index t (0 : Fin 2) * 2 + 1 * (y 0).val = (y 0).val; rw [e40]; omega
    | ⟨1, _⟩ => show win1_4.index t (1 : Fin 2) * 64 + 1 * (y 1).val = (y 1).val; rw [e41]; omega
  · funext y
    show V c main_v39 (((cfg1.win 3).blk t).view.emb y) = V c main_v39 y
    refine congrArg (V c main_v39) (funext fun d => Fin.ext ?_)
    match d with
    | ⟨0, _⟩ => show win1_3.index t (0 : Fin 2) * 1 + 1 * (y 0).val = (y 0).val; rw [e30]; omega
    | ⟨1, _⟩ => show win1_3.index t (1 : Fin 2) * 2 + 1 * (y 1).val = (y 1).val; rw [e31]; omega

/-- An index of the array is in point `t`'s output block iff each coordinate is in the block's range. -/
theorem mem_blk (t : Fin cfg1.N) (i : S100000x2.Idx) :
    i ∈ ((cfg1.win 5).blk t).view.set ↔ ∀ a : Fin 2, win1_5.index t a * S5000x2.size a ≤ (i a).val
      ∧ (i a).val < win1_5.index t a * S5000x2.size a + S5000x2.size a := by
  show i ∈ ((View.whole main_v40).slice (win1_5.rect t)).set ↔ _
  rw [View.set_slice_whole, Rect.mem_set_unit]
  exact Iff.rfl

/-- Row `r` of the array lies in the block of point `r / 5000`. -/
theorem cover (i : S100000x2.Idx) :
    ∃ t : Fin cfg1.N, (cfg1.win 5).flush t = true ∧ i ∈ ((cfg1.win 5).blk t).view.set := by
  have hi0 : (i 0).val < 100000 := idx2_lt0 i
  have hi1 : (i 1).val < 2 := idx2_lt1 i
  have hN : cfg1.N = 20 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 2 ≤ (i 1).val
      ∧ (i 1).val < win1_5.index ⟨(i 0).val / 5000, ht⟩ (1 : Fin 2) * 2 + 2
    rw [e51]; omega

/-- After the region the result array holds `out` of the arrays as the region found them. -/
theorem final (c : Dev nD) :
    (dat1 V c).arrAt 5 cfg1.N
      = out (V c main_v38) (V c main_v26) (V c main_arg5) (V c main_arg7) (V c main_v39) :=
  (dat1 V c).arrAt_eq_of_cover 5 _ (fun t _ => flushed_eq V c t) cover

end Cert.KernelIdeal.Layer2

end
-- ==== Proof.RefAt.lean ====
/-
  The reference program read at one index.

  The reference is a two-layer mean-aggregation graph network. With `deg` the in-degree count of a node (a scatter-add of
  ones), `agg` the scatter-add of the gathered neighbour rows, `one` the float word of 1 and `zero` the float word of 0,

    hidden r k = max (((∑ f, agg1 r f / max (deg r) one * Wl1 k f) + bl1 k) + ∑ f, x r f * Wr1 k f) zero
    out r c    = ((∑ k, agg2 r k / max (deg r) one * Wl2 c k) + bl2 c) + ∑ k, hidden r k * Wr2 c k

  where `agg2` is the same aggregation applied to `hidden`. The gathers and scatter-adds are never opened: they stay the
  stages of the generated Read module, so the two theorems below read only the pointwise operations, the broadcasts,
  the transposes and the four contractions.
-/
import proofs.«103269_j29317446762711_1_alg».proof.Proof.Gen.ReferenceIdeal.Read
import Idealize.ShloMosaic.Lib.ValueIdx
import Idealize.ShloMosaic.PureOps.Ideal

noncomputable section

open scoped BigOperators

namespace Cert.RefAt

open Cert.ReferenceIdeal Cert.ReferenceIdeal.Read Idealize.ShloMosaic Idealize.ShloMosaic.ValueIdx

variable (x0 : (⟨S100000x8, .f32⟩ : BufTy).Contents (Elt Ideal))
  (x1 : (⟨S2x1600000, .i32⟩ : BufTy).Contents (Elt Ideal))
  (x2 : (⟨S64x8, .f32⟩ : BufTy).Contents (Elt Ideal))
  (x3 : (⟨S64, .f32⟩ : BufTy).Contents (Elt Ideal))
  (x4 : (⟨S64x8, .f32⟩ : BufTy).Contents (Elt Ideal))
  (x5 : (⟨S2x64, .f32⟩ : BufTy).Contents (Elt Ideal))
  (x6 : (⟨S2, .f32⟩ : BufTy).Contents (Elt Ideal))
  (x7 : (⟨S2x64, .f32⟩ : BufTy).Contents (Elt Ideal))

/-! ## Layer 1 -/

/-- The first layer's divisor, broadcast along the feature axis, is `max (deg r) one` at every feature. -/
theorem div1_at (r : Fin 100000) (f : Fin 8) :
    val_main_v21 (F := Ideal) x1 (ix2 r f) =
      max (val_main_v17 (F := Ideal) x1 (ix1 r)) (Ideal.ofBits .f32 0x3F800000#32) := by
  have e : idx_main_v20 (idx_main_v21 (ix2 r f)) = ix1 r :=
    funext fun a => Fin.ext (by match a with | ⟨0, _⟩ => rfl)
  rw [val_main_v21_apply, val_main_v20_apply, e, val_main_v19_apply, val_main_v18_apply, val_main_cst_3_apply,
    Ideal.maximumf_def, Ideal.ofBits_def]

/-- The first layer's mean aggregate at a row and feature. -/
theorem mean1_at (r : Fin 100000) (f : Fin 8) :
    val_main_v22 (F := Ideal) x0 x1 (ix2 r f) =
      Ideal.div (val_main_v13 (F := Ideal) x0 x1 (ix2 r f))
        (max (val_main_v17 (F := Ideal) x1 (ix1 r)) (Ideal.ofBits .f32 0x3F800000#32)) := by
  rw [val_main_v22_apply, div1_at, Ideal.hostDivf_def]

/-- The neighbour product of layer 1: the mean aggregate against the transposed left weight. -/
theorem left1_at (r : Fin 100000) (k : Fin 64) :
    val_main_v24 (F := Ideal) x0 x1 x2 (ix2 r k) =
      ∑ f : Fin 8, Ideal.div (val_main_v13 (F := Ideal) x0 x1 (ix2 r f))
        (max (val_main_v17 (F := Ideal) x1 (ix1 r)) (Ideal.ofBits .f32 0x3F800000#32)) * x2 (ix2 k f) := by
  rw [val_main_v24_apply]
  refine Finset.sum_congr rfl fun f _ => ?_
  have el : lidx_main_v24 (ix2 r k) f = ix2 r f :=
    funext fun a => Fin.ext (by match a with | ⟨0, _⟩ => rfl | ⟨1, _⟩ => rfl)
  have er : idx_main_v23 (ridx_main_v24 (ix2 r k) f) = ix2 k f :=
    funext fun a => Fin.ext (by match a with | ⟨0, _⟩ => rfl | ⟨1, _⟩ => rfl)
  rw [el, mean1_at, val_main_v23_apply, er]

/-- The first bias, broadcast along the rows. -/
theorem bias1_at (r : Fin 100000) (k : Fin 64) :
    val_main_v26 (F := Ideal) x3 (ix2 r k) = x3 (ix1 k) := by
  have e : idx_main_v25 (idx_main_v26 (ix2 r k)) = ix1 k :=
    funext fun a => Fin.ext (by match a with | ⟨0, _⟩ => rfl)
  rw [val_main_v26_apply, val_main_v25_apply, e]

/-- The self product of layer 1: the input row against the transposed right weight. -/
theorem right1_at (r : Fin 100000) (k : Fin 64) :
    val_main_v29 (F := Ideal) x0 x4 (ix2 r k) = ∑ f : Fin 8, x0 (ix2 r f) * x4 (ix2 k f) := by
  rw [val_main_v29_apply]
  refine Finset.sum_congr rfl fun f _ => ?_
  have el : lidx_main_v29 (ix2 r k) f = ix2 r f :=
    funext fun a => Fin.ext (by match a with | ⟨0, _⟩ => rfl | ⟨1, _⟩ => rfl)
  have er : idx_main_v28 (ridx_main_v29 (ix2 r k) f) = ix2 k f :=
    funext fun a => Fin.ext (by match a with | ⟨0, _⟩ => rfl | ⟨1, _⟩ => rfl)
  rw [el, val_main_v28_apply, er]

/-- The hidden layer at a row and channel. -/
theorem hidden_apply (r : Fin 100000) (k : Fin 64) :
    val_main_v31 (F := Ideal) x0 x1 x2 x3 x4 (ix2 r k) =
      max (((∑ f : Fin 8, Ideal.div (val_main_v13 (F := Ideal) x0 x1 (ix2 r f))
              (max (val_main_v17 (F := Ideal) x1 (ix1 r)) (Ideal.ofBits .f32 0x3F800000#32)) * x2 (ix2 k f))
            + x3 (ix1 k))
          + ∑ f : Fin 8, x0 (ix2 r f) * x4 (ix2 k f)) (Ideal.ofBits .f32 0x00000000#32) := by
  rw [val_main_v31_apply, val_main_v30_apply, val_main_v27_apply, left1_at, bias1_at, right1_at,
    val_main_call0_v0_apply, val_main_call0_cst_apply, Ideal.maximumf_def, Ideal.addf_def, Ideal.addf_def,
    Ideal.ofBits_def]

/-! ## Layer 2 -/

/-- The second layer's divisor, broadcast along the channel axis, is `max (deg r) one` at every channel. -/
theorem div2_at (r : Fin 100000) (k : Fin 64) :
    val_main_v53 (F := Ideal) x1 (ix2 r k) =
      max (val_main_v49 (F := Ideal) x1 (ix1 r)) (Ideal.ofBits .f32 0x3F800000#32) := by
  have e : idx_main_v52 (idx_main_v53 (ix2 r k)) = ix1 r :=
    funext fun a => Fin.ext (by match a with | ⟨0, _⟩ => rfl)
  rw [val_main_v53_apply, val_main_v52_apply, e, val_main_v51_apply, val_main_v50_apply, val_main_cst_9_apply,
    Ideal.maximumf_def, Ideal.ofBits_def]

/-- The second layer's mean aggregate at a row and channel. -/
theorem mean2_at (r : Fin 100000) (k : Fin 64) :
    val_main_v54 (F := Ideal) x0 x1 x2 x3 x4 (ix2 r k) =
      Ideal.div (val_main_v45 (F := Ideal) x0 x1 x2 x3 x4 (ix2 r k))
        (max (val_main_v49 (F := Ideal) x1 (ix1 r)) (Ideal.ofBits .f32 0x3F800000#32)) := by
  rw [val_main_v54_apply, div2_at, Ideal.hostDivf_def]

/-- The neighbour product of layer 2. -/
theorem left2_at (r : Fin 100000) (c : Fin 2) :
    val_main_v56 (F := Ideal) x0 x1 x2 x3 x4 x5 (ix2 r c) =
      ∑ k : Fin 64, Ideal.div (val_main_v45 (F := Ideal) x0 x1 x2 x3 x4 (ix2 r k))
        (max (val_main_v49 (F := Ideal) x1 (ix1 r)) (Ideal.ofBits .f32 0x3F800000#32)) * x5 (ix2 c k) := by
  rw [val_main_v56_apply]
  refine Finset.sum_congr rfl fun k _ => ?_
  have el : lidx_main_v56 (ix2 r c) k = ix2 r k :=
    funext fun a => Fin.ext (by match a with | ⟨0, _⟩ => rfl | ⟨1, _⟩ => rfl)
  have er : idx_main_v55 (ridx_main_v56 (ix2 r c) k) = ix2 c k :=
    funext fun a => Fin.ext (by match a with | ⟨0, _⟩ => rfl | ⟨1, _⟩ => rfl)
  rw [el, mean2_at, val_main_v55_apply, er]

/-- The second bias, broadcast along the rows. -/
theorem bias2_at (r : Fin 100000) (c : Fin 2) :
    val_main_v58 (F := Ideal) x6 (ix2 r c) = x6 (ix1 c) := by
  have e : idx_main_v57 (idx_main_v58 (ix2 r c)) = ix1 c :=
    funext fun a => Fin.ext (by match a with | ⟨0, _⟩ => rfl)
  rw [val_main_v58_apply, val_main_v57_apply, e]

/-- The self product of layer 2: the hidden row against the transposed right weight. -/
theorem right2_at (r : Fin 100000) (c : Fin 2) :
    val_main_v61 (F := Ideal) x0 x1 x2 x3 x4 x7 (ix2 r c) =
      ∑ k : Fin 64, val_main_v31 (F := Ideal) x0 x1 x2 x3 x4 (ix2 r k) * x7 (ix2 c k) := by
  rw [val_main_v61_apply]
  refine Finset.sum_congr rfl fun k _ => ?_
  have el : lidx_main_v61 (ix2 r c) k = ix2 r k :=
    funext fun a => Fin.ext (by match a with | ⟨0, _⟩ => rfl | ⟨1, _⟩ => rfl)
  have er : idx_main_v60 (ridx_main_v61 (ix2 r c) k) = ix2 c k :=
    funext fun a => Fin.ext (by match a with | ⟨0, _⟩ => rfl | ⟨1, _⟩ => rfl)
  rw [el, val_main_v60_apply, er]

/-- The output at a row and class. -/
theorem out_apply (r : Fin 100000) (c : Fin 2) :
    val_main_v62 (F := Ideal) x0 x1 x2 x3 x4 x5 x6 x7 (ix2 r c) =
      ((∑ k : Fin 64, Ideal.div (val_main_v45 (F := Ideal) x0 x1 x2 x3 x4 (ix2 r k))
            (max (val_main_v49 (F := Ideal) x1 (ix1 r)) (Ideal.ofBits .f32 0x3F800000#32)) * x5 (ix2 c k))
          + x6 (ix1 c))
        + ∑ k : Fin 64, val_main_v31 (F := Ideal) x0 x1 x2 x3 x4 (ix2 r k) * x7 (ix2 c k) := by
  rw [val_main_v62_apply, val_main_v59_apply, left2_at, bias2_at, right2_at, Ideal.addf_def, Ideal.addf_def]

end Cert.RefAt

end
-- ==== Proof.HostGlue.lean ====
/- The host operations read back: what each region's input arrays hold when the region is entered,
   as terms of the launch memory.

   The program is a two-layer mean aggregation over a graph. With e the edge array (row 0 the
   sources, row 1 the destinations), x the node features, n the number of nodes:

     cnt   = scatterAdd(0, dst, 1)                        the in-degree of each node,
     inv   = 1 / max(cnt, 1)                              as a column [n, 1],
     sum8  = scatterAdd(0, dst, gather(x, src'))          the features summed over in-edges,
     aggr1 = sum8 * broadcast(inv)                        region 0's first input,
     h     = region 0's output,
     sum64 = scatterAdd(0, dst, gather(h, src'))          the hidden rows summed over in-edges,
     aggr2 = sum64 * broadcast(inv)                       region 1's first input,

   where src' is src with a negative entry moved up by n. The gather and the scatter-add are never
   opened: they stay the same opaque terms on the kernel's side and on the reference's side, and the
   two programs' stages are equal term for term. The only arithmetic read at an index is the product
   with the broadcast column: row r of an aggregate is the row sum times 1 / max(cnt r, 1). -/
import proofs.«103269_j29317446762711_1_alg».proof.Proof.Gen.KernelIdeal.Frame
import proofs.«103269_j29317446762711_1_alg».proof.Proof.Gen.ReferenceIdeal.Read

set_option maxRecDepth 16384

noncomputable section

namespace Cert.KernelIdeal.HostGlue

open Idealize.ShloMosaic Idealize.ShloMosaic.TcCoe Idealize.ShloMosaic.Tactic
open Idealize.SL Idealize.SL.Sem
open Idealize.ShloMosaic.StableHlo
open Cert.KernelIdeal Cert.KernelIdeal.Gen

/-- The edge array: row 0 the source of each edge, row 1 its destination. -/
abbrev Edges : Type := (⟨S2x1600000, .i32⟩ : BufTy).Contents (Elt Ideal)
/-- The node features, 8 per node. -/
abbrev Feat8 : Type := (⟨S100000x8, .f32⟩ : BufTy).Contents (Elt Ideal)
/-- The hidden rows, 64 per node. -/
abbrev Feat64 : Type := (⟨S100000x64, .f32⟩ : BufTy).Contents (Elt Ideal)

/-! ## The host operations' terms -/

/-- The sources: row 0 of the edge array, as a vector. -/
def srcK (e : Edges) : (⟨S1600000, .i32⟩ : BufTy).Contents (Elt Ideal) :=
  shapeCast S1600000 (extractStridedSlice S1x1600000 ![0, 0] e slices_S2x1600000_S1x1600000_0_0) shapeCasts_S1x1600000_S1600000
/-- The destinations: row 1 of the edge array, as a vector. -/
def dstK (e : Edges) : (⟨S1600000, .i32⟩ : BufTy).Contents (Elt Ideal) :=
  shapeCast S1600000 (extractStridedSlice S1x1600000 ![1, 0] e slices_S2x1600000_S1x1600000_1_0) shapeCasts_S1x1600000_S1600000
/-- The sources with a negative entry moved up by the number of nodes. -/
def srcNK (e : Edges) : (⟨S1600000, .i32⟩ : BufTy).Contents (Elt Ideal) :=
  select (cmpi .slt (srcK e) (broadcastInDim S1600000 ![] bcast_S_S1600000 (constantI S_ 32 0#32)))
    (addi (srcK e) (broadcastInDim S1600000 ![] bcast_S_S1600000 (constantI S_ 32 100000#32))) (srcK e)
/-- The in-degree of each node: a one added at each edge's destination. -/
def cntK (e : Edges) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstK e))
    (broadcastInDim S1600000 ![] bcast_S_S1600000 (constant (F := Ideal) S_ .f32 0x3F800000#32))
/-- One over the in-degree, a degree below one counted as one; as a column. -/
def invK (e : Edges) : (⟨S100000x1, .f32⟩ : BufTy).Contents (Elt Ideal) :=
  shapeCast S100000x1
    (Host.divf (F := Ideal) (broadcastInDim S100000 ![] bcast_S_S100000 (constant (F := Ideal) S_ .f32 0x3F800000#32))
      (maximumf (F := Ideal) (cntK e) (broadcastInDim S100000 ![] bcast_S_S100000 (constant (F := Ideal) S_ .f32 0x3F800000#32))))
    shapeCasts_S100000_S100000x1
/-- The features summed over each node's in-edges. -/
def sum8K (e : Edges) (x : Feat8) : Feat8 :=
  Host.scatterAdd (F := Ideal) scatter_S100000x8_S1600000x1_S1600000x8_1_0_0_1
    (broadcastInDim S100000x8 ![] bcast_S_S100000x8 (constant (F := Ideal) S_ .f32 0x00000000#32))
    (broadcastInDim S1600000x1 ![0] bcast_S1600000_S1600000x1_0 (dstK e))
    (Host.gather gather_S100000x8_S1600000x1_S1600000x8_1_0_n_n_0_1_18 x
      (broadcastInDim S1600000x1 ![0] bcast_S1600000_S1600000x1_0 (srcNK e)))
/-- The hidden rows summed over each node's in-edges. -/
def sum64K (e : Edges) (h : Feat64) : Feat64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstK e))
    (Host.gather gather_S100000x64_S1600000x1_S1600000x64_1_0_n_n_0_1_164 h
      (broadcastInDim S1600000x1 ![0] bcast_S1600000_S1600000x1_0 (srcNK e)))

variable (m : (ℓ : Loc nD τ sig) → Buf (Elt Ideal) ℓ) (ρ : Dev nD → PrngReg)

/-! ## Region 0's inputs at its entry -/

/-- Region 0's first input is the normalised first-layer aggregate. -/
theorem V1_aggr (c : Dev nD) :
    (Gen.V1 m ρ c main_v24 : S100000x8.Idx → EReal) =
      mulf (F := Ideal) (φ := .f32) (sum8K (m ((c : Thread nD τ).loc main_arg1)) (m ((c : Thread nD τ).loc main_arg0)))
        (broadcastInDim S100000x8 ![0, 1] bcast_S100000x1_S100000x8_0_1 (invK (m ((c : Thread nD τ).loc main_arg1)))) := by
  show StableHlo.after Gen.hostOps0 (Gen.W0 m ρ c) (Proc.devRef .tc main_v24) = _
  after_results_simp
  rfl

/-- No host operation writes an argument: at region 0's entry the node features are as launched. -/
theorem V1_arg0 (c : Dev nD) : Gen.V1 m ρ c main_arg0 = m ((c : Thread nD τ).loc main_arg0) := by
  show StableHlo.after Gen.hostOps0 (Gen.W0 m ρ c) (Proc.devRef .tc main_arg0) = _
  after_results_simp
/-- At region 0's entry the first layer's neighbour weights are as launched. -/
theorem V1_arg2 (c : Dev nD) : Gen.V1 m ρ c main_arg2 = m ((c : Thread nD τ).loc main_arg2) := by
  show StableHlo.after Gen.hostOps0 (Gen.W0 m ρ c) (Proc.devRef .tc main_arg2) = _
  after_results_simp
/-- At region 0's entry the first layer's self weights are as launched. -/
theorem V1_arg4 (c : Dev nD) : Gen.V1 m ρ c main_arg4 = m ((c : Thread nD τ).loc main_arg4) := by
  show StableHlo.after Gen.hostOps0 (Gen.W0 m ρ c) (Proc.devRef .tc main_arg4) = _
  after_results_simp
/-- Region 0's bias input is the first layer's bias as a row. -/
theorem V1_bias (c : Dev nD) :
    (Gen.V1 m ρ c main_v25 : S1x64.Idx → EReal) =
      shapeCast S1x64 (m ((c : Thread nD τ).loc main_arg3)) shapeCasts_S64_S1x64 := by
  show StableHlo.after Gen.hostOps0 (Gen.W0 m ρ c) (Proc.devRef .tc main_v25) = _
  after_results_simp
  rfl

/-! ## What the first stretch leaves for the second: the sources, the destinations, the inverse degree -/

theorem W1_src (c : Dev nD) :
    (Gen.W1 m ρ c (Proc.devRef .tc main_v1) : S1600000.Idx → BitVec 32) = srcK (m ((c : Thread nD τ).loc main_arg1)) := by
  show StableHlo.after Gen.hostOps0 (Gen.W0 m ρ c) (Proc.devRef .tc main_v1) = _
  after_results_simp
  rfl
theorem W1_dst (c : Dev nD) :
    (Gen.W1 m ρ c (Proc.devRef .tc main_v3) : S1600000.Idx → BitVec 32) = dstK (m ((c : Thread nD τ).loc main_arg1)) := by
  show StableHlo.after Gen.hostOps0 (Gen.W0 m ρ c) (Proc.devRef .tc main_v3) = _
  after_results_simp
  rfl
theorem W1_inv (c : Dev nD) :
    (Gen.W1 m ρ c (Proc.devRef .tc main_v12) : S100000x1.Idx → EReal) = invK (m ((c : Thread nD τ).loc main_arg1)) := by
  show StableHlo.after Gen.hostOps0 (Gen.W0 m ρ c) (Proc.devRef .tc main_v12) = _
  after_results_simp
  rfl
/-- Region 0 stages none of the three: they pass it unchanged. -/
theorem W2_src (c : Dev nD) :
    (Gen.W2 m ρ c (Proc.devRef .tc main_v1) : S1600000.Idx → BitVec 32) = srcK (m ((c : Thread nD τ).loc main_arg1)) :=
  (Gen.W2_of_ne m ρ c main_v1 (by decide)).trans (W1_src m ρ c)
theorem W2_dst (c : Dev nD) :
    (Gen.W2 m ρ c (Proc.devRef .tc main_v3) : S1600000.Idx → BitVec 32) = dstK (m ((c : Thread nD τ).loc main_arg1)) :=
  (Gen.W2_of_ne m ρ c main_v3 (by decide)).trans (W1_dst m ρ c)
theorem W2_inv (c : Dev nD) :
    (Gen.W2 m ρ c (Proc.devRef .tc main_v12) : S100000x1.Idx → EReal) = invK (m ((c : Thread nD τ).loc main_arg1)) :=
  (Gen.W2_of_ne m ρ c main_v12 (by decide)).trans (W1_inv m ρ c)
/-- Region 0's output array at its exit: its write-backs folded over the grid. -/
theorem W2_hidden (c : Dev nD) :
    Gen.W2 m ρ c (Proc.devRef .tc main_v26) = (Gen.dat0 (Gen.V1 m ρ) c).arrAt 5 cfg0.N :=
  Gen.W2_arr m ρ c 5

/-! ## Region 1's inputs at its entry -/

/-- No operation of the second stretch writes region 0's output: region 1 reads it as region 0 left it. -/
theorem V3_hidden (c : Dev nD) :
    Gen.V3 m ρ c main_v26 = (Gen.dat0 (Gen.V1 m ρ) c).arrAt 5 cfg0.N := by
  show StableHlo.after Gen.hostOps1 (Gen.W2 m ρ c) (Proc.devRef .tc main_v26) = _
  after_results_simp
  exact W2_hidden m ρ c

/-- Region 1's first input is the normalised second-layer aggregate of region 0's output. -/
theorem V3_aggr (c : Dev nD) :
    (Gen.V3 m ρ c main_v38 : S100000x64.Idx → EReal) =
      mulf (F := Ideal) (φ := .f32)
        (sum64K (m ((c : Thread nD τ).loc main_arg1)) ((Gen.dat0 (Gen.V1 m ρ) c).arrAt 5 cfg0.N))
        (broadcastInDim S100000x64 ![0, 1] bcast_S100000x1_S100000x64_0_1 (invK (m ((c : Thread nD τ).loc main_arg1)))) := by
  show StableHlo.after Gen.hostOps1 (Gen.W2 m ρ c) (Proc.devRef .tc main_v38) = _
  after_results_simp
  rw [W2_hidden m ρ c, W2_inv m ρ c, W2_src m ρ c, W2_dst m ρ c]
  rfl

/-- No host operation and no window of region 0 touches the second layer's neighbour weights. -/
theorem V3_arg5 (c : Dev nD) : Gen.V3 m ρ c main_arg5 = m ((c : Thread nD τ).loc main_arg5) := by
  show StableHlo.after Gen.hostOps1 (Gen.W2 m ρ c) (Proc.devRef .tc main_arg5) = _
  after_results_simp
  refine (Gen.W2_of_ne m ρ c main_arg5 (by decide)).trans ?_
  show StableHlo.after Gen.hostOps0 (Gen.W0 m ρ c) (Proc.devRef .tc main_arg5) = _
  after_results_simp
/-- Nor the second layer's self weights. -/
theorem V3_arg7 (c : Dev nD) : Gen.V3 m ρ c main_arg7 = m ((c : Thread nD τ).loc main_arg7) := by
  show StableHlo.after Gen.hostOps1 (Gen.W2 m ρ c) (Proc.devRef .tc main_arg7) = _
  after_results_simp
  refine (Gen.W2_of_ne m ρ c main_arg7 (by decide)).trans ?_
  show StableHlo.after Gen.hostOps0 (Gen.W0 m ρ c) (Proc.devRef .tc main_arg7) = _
  after_results_simp
/-- The second layer's bias reaches the second stretch as launched. -/
theorem W2_arg6 (c : Dev nD) : Gen.W2 m ρ c (Proc.devRef .tc main_arg6) = m ((c : Thread nD τ).loc main_arg6) := by
  refine (Gen.W2_of_ne m ρ c main_arg6 (by decide)).trans ?_
  show StableHlo.after Gen.hostOps0 (Gen.W0 m ρ c) (Proc.devRef .tc main_arg6) = _
  after_results_simp
/-- Region 1's bias input is the second layer's bias as a row. -/
theorem V3_bias (c : Dev nD) :
    (Gen.V3 m ρ c main_v39 : S1x2.Idx → EReal) =
      shapeCast S1x2 (m ((c : Thread nD τ).loc main_arg6)) shapeCasts_S2_S1x2 := by
  show StableHlo.after Gen.hostOps1 (Gen.W2 m ρ c) (Proc.devRef .tc main_v39) = _
  after_results_simp
  rw [W2_arg6 m ρ c]
  rfl

/-! ## The kernel's opaque terms are the reference's stages

Both programs print the same slices, casts, broadcasts, gathers and scatter-adds, over equal shapes and equal
dimension records; only the names differ. -/

section Stages

/-- The sources are the reference's. -/
theorem srcK_eq (e : Edges) : srcK e = Cert.ReferenceIdeal.Read.val_main_v1 (F := Ideal) e := by
  unfold srcK Cert.ReferenceIdeal.Read.val_main_v1 Cert.ReferenceIdeal.Read.val_main_v0
  rfl
/-- The destinations are the reference's. -/
theorem dstK_eq (e : Edges) : dstK e = Cert.ReferenceIdeal.Read.val_main_v3 (F := Ideal) e := by
  unfold dstK Cert.ReferenceIdeal.Read.val_main_v3 Cert.ReferenceIdeal.Read.val_main_v2
  rfl
/-- The first layer's summed features are the reference's. -/
theorem sum8K_eq (e : Edges) (x : Feat8) : sum8K e x = Cert.ReferenceIdeal.Read.val_main_v13 (F := Ideal) x e := by
  unfold sum8K srcNK dstK srcK
    Cert.ReferenceIdeal.Read.val_main_v13 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4
    Cert.ReferenceIdeal.Read.val_main_c Cert.ReferenceIdeal.Read.val_main_v3 Cert.ReferenceIdeal.Read.val_main_v2
    Cert.ReferenceIdeal.Read.val_main_v1 Cert.ReferenceIdeal.Read.val_main_v0
  rfl
/-- The in-degree is the reference's first count. -/
theorem cntK_eq17 (e : Edges) : cntK e = Cert.ReferenceIdeal.Read.val_main_v17 (F := Ideal) e := by
  unfold cntK dstK
    Cert.ReferenceIdeal.Read.val_main_v17 Cert.ReferenceIdeal.Read.val_main_v16 Cert.ReferenceIdeal.Read.val_main_v15
    Cert.ReferenceIdeal.Read.val_main_cst_2 Cert.ReferenceIdeal.Read.val_main_v14 Cert.ReferenceIdeal.Read.val_main_cst_1
    Cert.ReferenceIdeal.Read.val_main_v3 Cert.ReferenceIdeal.Read.val_main_v2
  rfl
/-- The in-degree is the reference's second count as well. -/
theorem cntK_eq49 (e : Edges) : cntK e = Cert.ReferenceIdeal.Read.val_main_v49 (F := Ideal) e := by
  unfold cntK dstK
    Cert.ReferenceIdeal.Read.val_main_v49 Cert.ReferenceIdeal.Read.val_main_v48 Cert.ReferenceIdeal.Read.val_main_v47
    Cert.ReferenceIdeal.Read.val_main_cst_8 Cert.ReferenceIdeal.Read.val_main_v46 Cert.ReferenceIdeal.Read.val_main_cst_7
    Cert.ReferenceIdeal.Read.val_main_v35 Cert.ReferenceIdeal.Read.val_main_v34
  rfl

/-- The second layer's summed rows, taken of the reference's hidden rows, are the reference's. -/
theorem sum64K_eq (x0 : Feat8) (e : Edges) (x2 : (⟨S64x8, .f32⟩ : BufTy).Contents (Elt Ideal))
    (x3 : (⟨S64, .f32⟩ : BufTy).Contents (Elt Ideal)) (x4 : (⟨S64x8, .f32⟩ : BufTy).Contents (Elt Ideal)) :
    sum64K e (Cert.ReferenceIdeal.Read.val_main_v31 (F := Ideal) x0 e x2 x3 x4)
      = Cert.ReferenceIdeal.Read.val_main_v45 (F := Ideal) x0 e x2 x3 x4 := by
  unfold sum64K srcNK dstK srcK
    Cert.ReferenceIdeal.Read.val_main_v45 Cert.ReferenceIdeal.Read.val_main_v44 Cert.ReferenceIdeal.Read.val_main_v43
    Cert.ReferenceIdeal.Read.val_main_cst_6 Cert.ReferenceIdeal.Read.val_main_v42 Cert.ReferenceIdeal.Read.val_main_v41
    Cert.ReferenceIdeal.Read.val_main_v40 Cert.ReferenceIdeal.Read.val_main_v39 Cert.ReferenceIdeal.Read.val_main_v38
    Cert.ReferenceIdeal.Read.val_main_c_5 Cert.ReferenceIdeal.Read.val_main_v37 Cert.ReferenceIdeal.Read.val_main_v36
    Cert.ReferenceIdeal.Read.val_main_c_4 Cert.ReferenceIdeal.Read.val_main_v35 Cert.ReferenceIdeal.Read.val_main_v34
    Cert.ReferenceIdeal.Read.val_main_v33 Cert.ReferenceIdeal.Read.val_main_v32
  generalize Cert.ReferenceIdeal.Read.val_main_v31 (F := Ideal) x0 e x2 x3 x4 = h
  rfl
end Stages

/-! ## The normalised aggregates at an index

Row `r` of an aggregate is the row of sums times one over the in-degree of node `r`, a degree below one counted
as one: the column `invK e` is broadcast along the feature axis, and the column at `[r, 0]` is the vector of
quotients at `[r]`. -/

section AtIndex
open Idealize.ShloMosaic.ValueIdx

/-- The vector of ones at a node. -/
theorem ones_at (r : Fin 100000) :
    broadcastInDim S100000 ![] bcast_S_S100000 (constant (F := Ideal) S_ .f32 0x3F800000#32) (ix1 r)
      = Ideal.ofBits .f32 0x3F800000#32 :=
  (broadcastInDim_apply _ bcast_S_S100000 (constant (F := Ideal) S_ .f32 0x3F800000#32) (ix1 r) ix0 (fun a => a.elim0)).trans
    (constant_apply (s := S_) (φ := .f32) 0x3F800000#32 ix0)

/-- Row `r` of a column is entry `r` of the vector it was cast from: the two row-major positions agree. -/
theorem col_pos (r : Fin 100000) :
    (S100000.rowMajor (ix1 r)).val = (S100000x1.rowMajor (ix2 r (0 : Fin 1))).val :=
  (Shape.rowMajor_val_one (d := ![100000]) (ix1 r)).trans
    ((show r.val = r.val * 1 + 0 by omega).trans
      (Shape.rowMajor_val_two (d := ![100000, 1]) (ix2 r (0 : Fin 1))).symm)

/-- A quotient by a maximum, entry by entry. -/
theorem div_max_at (a c : FVec Ideal S100000 .f32) (i : S100000.Idx) :
    Host.divf (F := Ideal) a (maximumf (F := Ideal) c a) i = Ideal.div (a i) (max (c i) (a i)) := rfl

/-- The inverse-degree column at row `r`. -/
theorem invK_at (e : Edges) (r : Fin 100000) :
    invK e (ix2 r (0 : Fin 1))
      = Ideal.div (Ideal.ofBits .f32 0x3F800000#32) (max (cntK e (ix1 r)) (Ideal.ofBits .f32 0x3F800000#32)) := by
  unfold invK
  have hone := ones_at r
  generalize cntK e = cnt
  generalize broadcastInDim S100000 ![] bcast_S_S100000 (constant (F := Ideal) S_ .f32 0x3F800000#32) = ones at hone ⊢
  refine (shapeCast_apply _ shapeCasts_S100000_S100000x1 (ix2 r (0 : Fin 1)) (ix1 r) (col_pos r)).trans ?_
  refine (div_max_at ones cnt (ix1 r)).trans ?_
  rw [hone]

/-- A column broadcast along 8 features, at `[r, f]`, is the column at `[r, 0]`. -/
theorem bcast8_at (col : (⟨S100000x1, .f32⟩ : BufTy).Contents (Elt Ideal)) (r : Fin 100000) (f : Fin 8) :
    broadcastInDim S100000x8 ![0, 1] bcast_S100000x1_S100000x8_0_1 col (ix2 r f) = col (ix2 r (0 : Fin 1)) :=
  broadcastInDim_apply _ bcast_S100000x1_S100000x8_0_1 col (ix2 r f) (ix2 r (0 : Fin 1)) (fun a => match a with
    | ⟨0, _⟩ => by show r.val = if (100000 : Nat) = 1 then 0 else r.val; rw [if_neg (by decide)]
    | ⟨1, _⟩ => by show 0 = if (1 : Nat) = 1 then 0 else f.val; rw [if_pos rfl])

/-- A column broadcast along 64 features, at `[r, k]`, is the column at `[r, 0]`. -/
theorem bcast64_at (col : (⟨S100000x1, .f32⟩ : BufTy).Contents (Elt Ideal)) (r : Fin 100000) (k : Fin 64) :
    broadcastInDim S100000x64 ![0, 1] bcast_S100000x1_S100000x64_0_1 col (ix2 r k) = col (ix2 r (0 : Fin 1)) :=
  broadcastInDim_apply _ bcast_S100000x1_S100000x64_0_1 col (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The 8-wide normalised aggregate at `[r, f]`: the row's sum times one over the node's in-degree. -/
theorem aggr8_at (S : Feat8) (e : Edges) (r : Fin 100000) (f : Fin 8) :
    (mulf (F := Ideal) (φ := .f32) S (broadcastInDim S100000x8 ![0, 1] bcast_S100000x1_S100000x8_0_1 (invK e))) (ix2 r f)
      = S (ix2 r f) * Ideal.div (Ideal.ofBits .f32 0x3F800000#32) (max (cntK e (ix1 r)) (Ideal.ofBits .f32 0x3F800000#32)) := by
  have hcol := (bcast8_at (invK e) r f).trans (invK_at e r)
  generalize Ideal.div (Ideal.ofBits .f32 0x3F800000#32) (max (cntK e (ix1 r)) (Ideal.ofBits .f32 0x3F800000#32)) = q at hcol ⊢
  generalize broadcastInDim S100000x8 ![0, 1] bcast_S100000x1_S100000x8_0_1 (invK e) = B at hcol ⊢
  rw [← hcol]
  exact mulf_apply (s := S100000x8) (φ := .f32) S B (ix2 r f)

/-- The 64-wide normalised aggregate at `[r, k]`: the row's sum times one over the node's in-degree. -/
theorem aggr64_at (S : Feat64) (e : Edges) (r : Fin 100000) (k : Fin 64) :
    (mulf (F := Ideal) (φ := .f32) S (broadcastInDim S100000x64 ![0, 1] bcast_S100000x1_S100000x64_0_1 (invK e))) (ix2 r k)
      = S (ix2 r k) * Ideal.div (Ideal.ofBits .f32 0x3F800000#32) (max (cntK e (ix1 r)) (Ideal.ofBits .f32 0x3F800000#32)) := by
  have hcol := (bcast64_at (invK e) r k).trans (invK_at e r)
  generalize Ideal.div (Ideal.ofBits .f32 0x3F800000#32) (max (cntK e (ix1 r)) (Ideal.ofBits .f32 0x3F800000#32)) = q at hcol ⊢
  generalize broadcastInDim S100000x64 ![0, 1] bcast_S100000x1_S100000x64_0_1 (invK e) = B at hcol ⊢
  rw [← hcol]
  exact mulf_apply (s := S100000x64) (φ := .f32) S B (ix2 r k)

/-- The first layer's bias as a row, at `[0, q]`. -/
theorem bias64_at (b : (⟨S64, .f32⟩ : BufTy).Contents (Elt Ideal)) (q : Fin 64) :
    shapeCast S1x64 b shapeCasts_S64_S1x64 (ix2 (0 : Fin 1) q) = b (ix1 q) :=
  shapeCast_apply b shapeCasts_S64_S1x64 (ix2 (0 : Fin 1) q) (ix1 q)
    ((Shape.rowMajor_val_one (d := ![64]) (ix1 q)).trans
      ((show q.val = 0 * 64 + q.val by omega).trans
        (Shape.rowMajor_val_two (d := ![1, 64]) (ix2 (0 : Fin 1) q)).symm))

/-- The second layer's bias as a row, at `[0, q]`. -/
theorem bias2_at (b : (⟨S2, .f32⟩ : BufTy).Contents (Elt Ideal)) (q : Fin 2) :
    shapeCast S1x2 b shapeCasts_S2_S1x2 (ix2 (0 : Fin 1) q) = b (ix1 q) :=
  shapeCast_apply b shapeCasts_S2_S1x2 (ix2 (0 : Fin 1) q) (ix1 q)
    ((Shape.rowMajor_val_one (d := ![2]) (ix1 q)).trans
      ((show q.val = 0 * 2 + q.val by omega).trans
        (Shape.rowMajor_val_two (d := ![1, 2]) (ix2 (0 : Fin 1) q)).symm))
end AtIndex

end Cert.KernelIdeal.HostGlue

end
-- ==== Proof.Bridge.lean ====
/-
  The idealized kernel's two output arrays are the reference's stages of the launched arguments.

  Region 0 leaves the hidden features `max ((Σ agg·Wl + Σ x·Wr) + b) 0` of the arrays it was entered with, where
  `agg` is the row sum over in-edges TIMES `1 / max(cnt, 1)`; the reference's hidden stage is
  `max ((Σ (sum / max(cnt, 1))·Wl + b) + Σ x·Wr) 0` over the same row sums and counts. Entry by entry the two differ
  by the law `s · (1 / max(c, 1)) = s / max(c, 1)` and by the order in which the bias is added, so the arrays are
  equal. Region 1 then aggregates EQUAL hidden arrays through the same gather and scatter-add — which are therefore
  never opened — and the same two laws join its result to the reference's.
-/
import proofs.«103269_j29317446762711_1_alg».proof.Proof.Layer1
import proofs.«103269_j29317446762711_1_alg».proof.Proof.Layer2
import proofs.«103269_j29317446762711_1_alg».proof.Proof.Laws
import proofs.«103269_j29317446762711_1_alg».proof.Proof.RefAt
import proofs.«103269_j29317446762711_1_alg».proof.Proof.HostGlue
import Idealize.ShloMosaic.Lib.ValueIdx

noncomputable section

open Idealize.ShloMosaic Idealize.ShloMosaic.TcCoe Idealize.SL.Sem Idealize.ShloMosaic.ValueIdx
open scoped BigOperators

namespace Cert.KernelIdeal.Bridge

open Cert.KernelIdeal Cert.KernelIdeal.Gen Cert.KernelIdeal.HostGlue

variable (m : (ℓ : Loc nD τ sig) → Buf (Elt Ideal) ℓ) (ρ : Dev nD → PrngReg)

/-- What region 0 leaves in the hidden-feature array is the reference's hidden stage of the launched arguments. -/
theorem hidden_eq (c : Dev nD) :
    (Gen.dat0 (Gen.V1 m ρ) c).arrAt 5 cfg0.N
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Layer1.final (Gen.V1 m ρ) c, V1_aggr m ρ c, V1_arg0 m ρ c, V1_arg2 m ρ c, V1_arg4 m ρ c, V1_bias m ρ c]
  funext i
  obtain ⟨r, k, rfl⟩ : ∃ (r : Fin 100000) (k : Fin 64), i = ix2 r k := ⟨i 0, i 1, eq_ix2 i⟩
  rw [Layer1.hidden_ix2, Cert.RefAt.hidden_apply,
    Layer1.hiddenAt_eq _ _ _ _ _ r k
      (fun f => Ideal.div (Cert.ReferenceIdeal.Read.val_main_v13 (F := Ideal) (m ((c : Thread nD τ).loc main_arg0)) (m ((c : Thread nD τ).loc main_arg1)) (ix2 r f))
        (max (Cert.ReferenceIdeal.Read.val_main_v17 (F := Ideal) (m ((c : Thread nD τ).loc main_arg1)) (ix1 r)) (Ideal.ofBits .f32 0x3F800000#32)))
      ((m ((c : Thread nD τ).loc main_arg3)) (ix1 k)) ?_ ?_]
  · intro f
    rw [aggr8_at, sum8K_eq, cntK_eq17, Cert.Sage.mul_recip_clamp]
  · exact bias64_at _ k

/-- What region 1 leaves in the result array is the reference's result stage of the launched arguments. -/
theorem out_eq (c : Dev nD) :
    (Gen.dat1 (Gen.V3 m ρ) c).arrAt 5 cfg1.N
      = Cert.ReferenceIdeal.Read.val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) := by
  rw [Layer2.final (Gen.V3 m ρ) c, V3_aggr m ρ c, V3_hidden m ρ c, V3_arg5 m ρ c, V3_arg7 m ρ c, V3_bias m ρ c,
    hidden_eq m ρ c]
  funext i
  obtain ⟨r, q, rfl⟩ : ∃ (r : Fin 100000) (q : Fin 2), i = ix2 r q := ⟨i 0, i 1, eq_ix2 i⟩
  rw [Layer2.out_ix2, Cert.RefAt.out_apply,
    Layer2.outAt_eq _ _ _ _ _ r q
      (fun k => Ideal.div (Cert.ReferenceIdeal.Read.val_main_v45 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 r k))
        (max (Cert.ReferenceIdeal.Read.val_main_v49 (F := Ideal) (m ((c : Thread nD τ).loc main_arg1)) (ix1 r)) (Ideal.ofBits .f32 0x3F800000#32)))
      ((m ((c : Thread nD τ).loc main_arg6)) (ix1 q)) ?_ ?_]
  · intro k
    rw [aggr64_at, sum64K_eq, cntK_eq49, Cert.Sage.mul_recip_clamp]
  · exact bias2_at _ q

end Cert.KernelIdeal.Bridge

end
-- ==== Proof.lean ====
/-
  Two-layer mean-aggregation graph network over 100000 nodes and 1600000 edges: the kernel program against its
  array-library reference, on the extended reals.

  Both programs count each node's in-edges and sum its neighbours' feature rows with the same gather and
  scatter-add of the same index arrays; those two operations are never opened here. The kernel program multiplies
  the row sums by `1 / max(cnt, 1)`, runs each layer's dense combine `(agg·Wlᵀ + x·Wrᵀ) + b` (rectified after the
  first layer) in twenty blocks of 5000 nodes, and feeds the first layer's result to the second. The reference divides
  the row sums by `max(cnt, 1)` and adds the bias before the second product. The modules:
    Proof/Layer1.lean, Proof/Layer2.lean — each block product as a sum of products, each body's result at an entry, and
      the twenty blocks assembled into the whole array, for any contents the region is entered with;
    Proof/HostGlue.lean — what the regions are entered with, and that the kernel program's gathers and scatter-adds are
      the reference's terms;
    Proof/RefAt.lean — the reference's hidden and result arrays at an entry;
    Proof/Laws.lean — `s · (1 / max(c, 1)) = s / max(c, 1)` and the order of the bias, at every extended real;
    Proof/Bridge.lean — the kernel program's two arrays are the reference's;
    Proof/KernelRun.lean — the kernel program's run with its result array named.
  The two laws hold at the infinities, so the claim never uses that the inputs are finite. The idealization rewrote
  nothing, so `preserves` asks nothing.
-/
import proofs.«103269_j29317446762711_1_alg».proof.Defs
import proofs.«103269_j29317446762711_1_alg».proof.Proof.Gen.Kernel
import proofs.«103269_j29317446762711_1_alg».proof.Proof.Gen.Kernel.Frame
import proofs.«103269_j29317446762711_1_alg».proof.Proof.Gen.KernelIdeal
import proofs.«103269_j29317446762711_1_alg».proof.Proof.Gen.KernelIdeal.Frame
import proofs.«103269_j29317446762711_1_alg».proof.Proof.Gen.ReferenceIdeal
import proofs.«103269_j29317446762711_1_alg».proof.Proof.Gen.ReferenceIdeal.Read
import proofs.«103269_j29317446762711_1_alg».proof.Proof.Gen.Pre_finite_inputs
import proofs.«103269_j29317446762711_1_alg».proof.Proof.KernelRun
import proofs.«103269_j29317446762711_1_alg».proof.Proof.Bridge
import Idealize.ShloMosaic.Adequacy
import Idealize.ShloMosaic.Init

noncomputable section

namespace Cert.Proof

open Idealize.ShloMosaic Idealize.SL.Sem

/-- The word-level program terminates without a fault and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's result stage of the arguments: the kernel program's by the
    bridge, the reference's by its own run; the arguments agree, and both keep them. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Bridge.out_eq m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v62_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
